-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x256 : Shape := ⟨2, ![10000, 256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_

variable [Facts]

def fn {F : FTy → Type} [FloatOps F] (main_arg0 : FVec F S10000x10000 .f32) (main_arg1 : FVec F S10000x256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  main_v8
-- ==== Kernel.lean ====
abbrev S10000x10000 : Shape := ⟨2, ![10000, 10000]⟩
abbrev S10000x256 : Shape := ⟨2, ![10000, 256]⟩
abbrev S200x10000 : Shape := ⟨2, ![200, 10000]⟩
abbrev S200x256 : Shape := ⟨2, ![200, 256]⟩

abbrev nBuf : Space → Nat
  | .hbm => 5
  | .vmem => 14
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S10000x256, .f32⟩
  | .hbm, ⟨3, _⟩ => ⟨S10000x256, .f32⟩
  | .hbm, ⟨4, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S10000x256, .f32⟩
  | .local _ .vmem, ⟨3, _⟩ => ⟨S200x256, .f32⟩
  | .local _ .vmem, ⟨4, _⟩ => ⟨S200x256, .f32⟩
  | .local _ .vmem, ⟨5, _⟩ => ⟨S200x10000, .f32⟩
  | .local _ .vmem, ⟨6, _⟩ => ⟨S200x10000, .f32⟩
  | .local _ .vmem, ⟨7, _⟩ => ⟨S10000x256, .f32⟩
  | .local _ .vmem, ⟨8, _⟩ => ⟨S200x256, .f32⟩
  | .local _ .vmem, ⟨9, _⟩ => ⟨S200x256, .f32⟩
  | .local _ .vmem, ⟨10, _⟩ => ⟨S200x256, .f32⟩
  | .local _ .vmem, ⟨11, _⟩ => ⟨S200x256, .f32⟩
  | .local _ .vmem, ⟨12, _⟩ => ⟨S200x256, .f32⟩
  | .local _ .vmem, ⟨13, _⟩ => ⟨S200x256, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_off1 (i : grid1.Coords) : Fin 2 → Nat :=
  let arg0 : BitVec 32 := BitVec.ofNat 32 (i 0).val
  let c200_i32 : BitVec 32 := 200#32
  let v6 : BitVec 32 := Scalar.muli arg0 c200_i32
  let v7 : Index := Scalar.indexCast v6
  let c0_7 : Index := 0#32
  ![v7.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  inb_S200x256_S200x256_0_0 : ∀ a, (![0, 0] : Fin 2 → Nat) a + S200x256.size a ≤ S200x256.size a
  h_S200x256 : 0 < S200x256.numel
  shapeCasts_S10000x256_S10000x256 : S10000x256.ShapeCasts S10000x256
  shapeCasts_S200x256_S200x256 : S200x256.ShapeCasts S200x256
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x256.size a ≤ S10000x256.size a
  hwx0_2 : ∀ i : grid0.Coords, EltTy.bits .f32 = 32 ∨ (Rect.block (s := S10000x256) S200x256.size (cc0_transform_2 i) (hinb0_2 i)).WholeWords (EltTy.packing .f32)
  hrank1 : 0 < grid1.rank
  k1_off1_inb : ∀ i : grid1.Coords, ∀ a, (k1_off1 i) a + S200x256.size a ≤ S10000x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x256.size a ≤ S10000x256.size a
  hwx1_2 : ∀ i : grid1.Coords, EltTy.bits .f32 = 32 ∨ (Rect.block (s := S10000x256) S200x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x256.size a ≤ S10000x256.size a
  hwx1_3 : ∀ i : grid1.Coords, EltTy.bits .f32 = 32 ∨ (Rect.block (s := S10000x256) S200x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x256.size a ≤ S10000x256.size a
  hwx1_4 : ∀ i : grid1.Coords, EltTy.bits .f32 = 32 ∨ (Rect.block (s := S10000x256) S200x256.size (cc1_transform_4 i) (hinb1_4 i)).WholeWords (EltTy.packing .f32)

variable [Facts₀]

def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S200x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S200x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S200x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x256 : Shape := ⟨2, ![10000, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S10000x256, .f32⟩
  | .hbm, ⟨3, _⟩ => ⟨S10000x256, .f32⟩
  | .hbm, ⟨4, _⟩ => ⟨S10000x256, .f32⟩
  | .hbm, ⟨5, _⟩ => ⟨S10000x256, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  dot_S10000x10000_S10000x256_S10000x256_1_0_0_1_n_n_wf : DotDims.WF S10000x10000 S10000x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Propagate.lean ====
/-
  Two rounds of propagation through a dense adjacency matrix, over the extended reals.

  For a 10000 x 10000 matrix `A` and a 10000 x 256 array `x`, one round is the matrix product
  `(A x) (r, c) = sum over k of A (r, k) * x (k, c)`. The results compared by this certificate are the first round
  `A x`, the second round `A (A x)`, and the running total `(x + A x) + A (A x)`, each stated index by index.
  Nothing here needs the entries to be finite: only sums and products of extended reals appear, and the two
  programs add and multiply the same terms in the same grouping.
-/
import Idealize.ShloMosaic.PureOps.Ideal
import Idealize.ShloMosaic.Lib.ValueIdx

noncomputable section

namespace Cert.Propagate

open Idealize.ShloMosaic Idealize.ShloMosaic.ValueIdx

/-- The adjacency matrix's shape. -/
abbrev SA : Shape := ⟨2, ![10000, 10000]⟩
/-- The embedding array's shape. -/
abbrev SX : Shape := ⟨2, ![10000, 256]⟩

/-- One round: entry `(r, c)` of the product `A x` is the sum over `k` of `A (r, k) * x (k, c)`. -/
def round (A : FVec Ideal SA .f32) (x : FVec Ideal SX .f32) : FVec Ideal SX .f32 :=
  fun i => ∑ k : Fin 10000, A (ix2 (i 0) k) * x (ix2 k (i 1))

/-- The running total after two rounds: `(x + A x) + A (A x)`, entry by entry. -/
def total (A : FVec Ideal SA .f32) (x : FVec Ideal SX .f32) : FVec Ideal SX .f32 :=
  fun i => (x i + round A x i) + round A (round A x) i

/-- The running total when the first round's array `e` is given: `(x + e) + A e`, entry by entry. -/
def totalWith (A : FVec Ideal SA .f32) (x e : FVec Ideal SX .f32) : FVec Ideal SX .f32 :=
  fun i => (x i + e i) + round A e i

/-- The running total is the total with the first round's array put in. -/
theorem total_eq_totalWith (A : FVec Ideal SA .f32) (x : FVec Ideal SX .f32) :
    total A x = totalWith A x (round A x) := rfl

theorem round_apply (A : FVec Ideal SA .f32) (x : FVec Ideal SX .f32) (i : SX.Idx) :
    round A x i = ∑ k : Fin 10000, A (ix2 (i 0) k) * x (ix2 k (i 1)) := rfl

theorem total_apply (A : FVec Ideal SA .f32) (x : FVec Ideal SX .f32) (i : SX.Idx) :
    total A x i = (x i + round A x i) + round A (round A x) i := rfl

end Cert.Propagate

end
-- ==== Proof.RefValue.lean ====
/-
  The reference's three computed results are the two propagation rounds and their running total.

  The reference multiplies the adjacency matrix into the embeddings twice with the host's general contraction and
  adds the three arrays left to right. Read at an index, each contraction is the sum over the shared coordinate of
  the left operand's row entry times the right operand's column entry, which is one round of `Cert.Propagate`.
-/
import proofs.«128941_g11879879541107_cont_fleet_253_3_alg».proof.Proof.Gen.ReferenceIdeal.Run
import proofs.«128941_g11879879541107_cont_fleet_253_3_alg».proof.Proof.Gen.ReferenceIdeal.Read
import proofs.«128941_g11879879541107_cont_fleet_253_3_alg».proof.Proof.Propagate

noncomputable section

namespace Cert.ReferenceIdeal.RefValue

open Cert.ReferenceIdeal Cert.ReferenceIdeal.Read Idealize.ShloMosaic Idealize.ShloMosaic.ValueIdx Cert.Propagate

/-- The left operand is read at (row of the result, contracted coordinate). -/
theorem lidx0_eq (i : S10000x256.Idx) (k : Fin 10000) : lidx_main_v0 i k = ix2 (i 0) k :=
  funext fun a => Fin.ext (by match a with | ⟨0, _⟩ => rfl | ⟨1, _⟩ => rfl)
/-- The right operand is read at (contracted coordinate, column of the result). -/
theorem ridx0_eq (i : S10000x256.Idx) (k : Fin 10000) : ridx_main_v0 i k = ix2 k (i 1) :=
  funext fun a => Fin.ext (by match a with | ⟨0, _⟩ => rfl | ⟨1, _⟩ => rfl)
theorem lidx1_eq (i : S10000x256.Idx) (k : Fin 10000) : lidx_main_v1 i k = ix2 (i 0) k :=
  funext fun a => Fin.ext (by match a with | ⟨0, _⟩ => rfl | ⟨1, _⟩ => rfl)
theorem ridx1_eq (i : S10000x256.Idx) (k : Fin 10000) : ridx_main_v1 i k = ix2 k (i 1) :=
  funext fun a => Fin.ext (by match a with | ⟨0, _⟩ => rfl | ⟨1, _⟩ => rfl)

/-- The first contraction is one round. -/
theorem first_eq (A : FVec Ideal SA .f32) (x : FVec Ideal SX .f32) :
    val_main_v0 (F := Ideal) A x = round A x := by
  funext i
  rw [val_main_v0_apply, round_apply]
  simp only [lidx0_eq, ridx0_eq]
  rfl

/-- The second contraction is a round applied to the first. -/
theorem second_eq (A : FVec Ideal SA .f32) (x : FVec Ideal SX .f32) :
    val_main_v1 (F := Ideal) A x = round A (round A x) := by
  funext i
  rw [val_main_v1_apply, round_apply, first_eq]
  simp only [lidx1_eq, ridx1_eq]
  rfl

/-- The last sum is the running total. -/
theorem total_eq (A : FVec Ideal SA .f32) (x : FVec Ideal SX .f32) :
    val_main_v3 (F := Ideal) A x = total A x := by
  funext i
  rw [val_main_v3_apply, val_main_v2_apply, first_eq, second_eq, total_apply]
  rfl

end Cert.ReferenceIdeal.RefValue

end
-- ==== Proof.KernelRun.lean ====
/-
  The kernel program's run with its three computed arrays named.

  The program is two kernels in a row. Every execution ends with each buffer that outlives the kernels at the
  contents the second kernel leaves: its two result arrays as its write-backs leave them, the first kernel's result
  array (an input of the second kernel, hence unchanged by it) as the first kernel's write-backs leave it, and the two
  arguments as launched.
-/
import proofs.«128941_g11879879541107_cont_fleet_253_3_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second kernel's total array ends at what its write-backs leave. -/
theorem end_total (c : Dev nD) : W2 m ρ c (Proc.devRef .tc main_v1_1) = (dat1 (V1 m ρ) c).arrAt 4 cfg1.N :=
  W2_arr m ρ c 4
/-- The second kernel's product array ends at what its write-backs leave. -/
theorem end_second (c : Dev nD) : W2 m ρ c (Proc.devRef .tc main_v1_0) = (dat1 (V1 m ρ) c).arrAt 3 cfg1.N :=
  W2_arr m ρ c 3
/-- The first kernel's result array is an input of the second kernel, so it ends at what the first kernel's
    write-backs leave. -/
theorem end_first (c : Dev nD) : W2 m ρ c (Proc.devRef .tc main_v0) = (dat0 (V0 m ρ) c).arrAt 2 cfg0.N :=
  calc W2 m ρ c (Proc.devRef .tc main_v0)
    _ = W1 m ρ c (Proc.devRef .tc main_v0) := (W2_arr m ρ c 1).trans (((dat1 (V1 m ρ) c).arrAt_in 1 rfl _).trans (A_eq1 (V1 m ρ) c 1))
    _ = (dat0 (V0 m ρ) c).arrAt 2 cfg0.N := W1_arr m ρ c 2

/-- What the second kernel finds when it starts: the arguments as launched, -/
theorem mid_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem mid_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
/-- and the first kernel's result array as the first kernel left it. -/
theorem mid_first (c : Dev nD) : V1 m ρ c main_v0 = (dat0 (V0 m ρ) c).arrAt 2 cfg0.N :=
  W1_arr m ρ c 2

set_option backward.isDefEq.respectTransparency.types false in
/-- Every weakly fair execution of the program terminates, nothing faulting, with the three computed arrays at the
    contents named above and the arguments as launched. -/
theorem run_named : θ_run defs (onTc (τ := τ) (main (F := F))) ⟨m, fun _ => 0, ρ⟩ (fun r => ∀ c : Dev nD,
      r.2.mem ((c.tc : Thread nD τ).loc main_v1_1) = (dat1 (V1 m ρ) c).arrAt 4 cfg1.N
      ∧ r.2.mem ((c.tc : Thread nD τ).loc main_arg1) = m ((c.tc : Thread nD τ).loc main_arg1)
      ∧ r.2.mem ((c.tc : Thread nD τ).loc main_v0) = (dat0 (V0 m ρ) c).arrAt 2 cfg0.N
      ∧ r.2.mem ((c.tc : Thread nD τ).loc main_v1_0) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1_1 (by decide))).trans (end_total m ρ c),
       (h c _ (mem_uc main_arg1 (by decide))).trans (W2_main_arg1 m ρ c),
       (h c _ (mem_uc main_v0 (by decide))).trans (end_first m ρ c),
       (h c _ (mem_uc main_v1_0 (by decide))).trans (end_second m ρ c),
       (h c _ (mem_uc main_arg0 (by decide))).trans (W2_main_arg0 m ρ c),
       (h c _ (mem_uc main_arg1 (by decide))).trans (W2_main_arg1 m ρ c)⟩)

end Cert.KernelIdeal.Hand

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.Payloads.lean ====
/-
  The kernel bodies' arithmetic, read at an index of a 200 x 256 result block, over the extended reals.

  Both bodies multiply a 200 x 10000 stripe of the adjacency matrix into a whole 10000 x 256 array on the matrix unit,
  starting from a zero accumulator: entry `(r, c)` of the block is the sum over `k` of `stripe (r, k) * array (k, c)`.
  The second body also adds three blocks entry by entry, `(u + v) + product`. A cast of an array to its own shape
  changes nothing.
-/
import proofs.«128941_g11879879541107_cont_fleet_253_3_alg».proof.Proof.Gen.KernelIdeal.Skeleton
import proofs.«128941_g11879879541107_cont_fleet_253_3_alg».proof.Proof.LibPlainDot
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- The printed contraction record is the plain one: contract the stripe's columns with the array's rows. -/
theorem dims_plain : dot_S200x10000_S10000x256_S200x256_1_0_0_1_n_n = DotDims.plain 200 10000 256 := rfl

/-- The first body's product block at an entry. -/
theorem product0_apply (a : Vec Ideal S200x10000 .f32) (x : Vec Ideal S10000x256 .f32) (j : S200x256.Idx) :
    k0_pay1 (F := Ideal) a x j = ∑ k : Fin 10000, a (ix2 (j 0) k) * x (ix2 k (j 1)) := by
  unfold k0_pay1
  exact Cert.Lib.PlainDot.matmul_zero_apply 200 10000 256 none a x j

/-- The second body's product block at an entry (the array is first cast to its own shape). -/
theorem product1_apply (a : Vec Ideal S200x10000 .f32) (x : Vec Ideal S10000x256 .f32) (j : S200x256.Idx) :
    k1_pay1 (F := Ideal) a x j = ∑ k : Fin 10000, a (ix2 (j 0) k) * x (ix2 k (j 1)) := by
  unfold k1_pay1
  simp only [shapeCast_self]
  exact Cert.Lib.PlainDot.matmul_zero_apply 200 10000 256 none a x j

/-- The second body's total block at an entry: the two loaded blocks added, then the product block. -/
theorem total1_apply (a : Vec Ideal S200x10000 .f32) (x : Vec Ideal S10000x256 .f32) (u v : Vec Ideal S200x256 .f32)
    (j : S200x256.Idx) :
    k1_pay2 (F := Ideal) a x u v j = (u j + v j) + ∑ k : Fin 10000, a (ix2 (j 0) k) * x (ix2 k (j 1)) := by
  unfold k1_pay2
  simp only [shapeCast_self]
  show (u j + v j) + k1_pay1 (F := Ideal) a x j = _
  rw [product1_apply]

end Cert.KernelIdeal.Hand

end
-- ==== Proof.FirstRound.lean ====
/-
  What the first kernel leaves in its result array: one propagation round.

  The first kernel walks 50 grid points. At point `t` it is handed rows `200 t … 200 t + 199` of the adjacency matrix
  (all 10000 columns) and the whole embedding array, multiplies them, and writes the 200 x 256 product back as rows
  `200 t … 200 t + 199` of the result. Entry `(r, c)` of that block is the sum over `k` of `A (200 t + r, k) * x (k, c)`,
  which is entry `(200 t + r, c)` of `A x`; the 50 blocks tile the 10000 rows, so the result array ends holding `A x`.
  Everything is stated for arbitrary contents `V` of the buffers when the kernel starts.
-/
import proofs.«128941_g11879879541107_cont_fleet_253_3_alg».proof.Proof.Gen.KernelIdeal.Frame
import proofs.«128941_g11879879541107_cont_fleet_253_3_alg».proof.Proof.Payloads
import proofs.«128941_g11879879541107_cont_fleet_253_3_alg».proof.Proof.Propagate
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the first kernel's three windows at grid point `t`: the matrix stripe and the result block
    are block row `t`, the embedding array is its one whole block. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The matrix stripe at point `t`, at `(r, k)`, is the matrix at `(200 t + r, k)`. -/
theorem stripe0_apply (c : Dev nD) (t : Fin cfg0.N) (y : S200x10000.Idx) (i : S10000x10000.Idx)
    (h0 : (i 0).val = 200 * t.val + (y 0).val) (h1 : (i 1).val = (y 1).val) :
    (iblk0 V c 0 t : Vec Ideal S200x10000 .f32) y = (V c main_arg0 : S10000x10000.Idx → Elt Ideal .f32) i := by
  obtain ⟨e0, e1, -⟩ := block_index0 t
  unfold iblk0
  rw [View.read_apply]
  show V c main_arg0 _ = V c main_arg0 _
  congr 1
  funext a
  apply Fin.ext
  match a with
  | ⟨0, _⟩ => show win0_0.index t (0 : Fin 2) * 200 + 1 * (y 0).val = (i 0).val; rw [e0, h0]; omega
  | ⟨1, _⟩ => show win0_0.index t (1 : Fin 2) * 10000 + 1 * (y 1).val = (i 1).val; rw [e1, h1]; omega

/-- The embedding window's block at any point is the whole embedding array. -/
theorem whole0_apply (c : Dev nD) (t : Fin cfg0.N) (y i : S10000x256.Idx)
    (h0 : (i 0).val = (y 0).val) (h1 : (i 1).val = (y 1).val) :
    (iblk0 V c 1 t : Vec Ideal S10000x256 .f32) y = (V c main_arg1 : S10000x256.Idx → Elt Ideal .f32) i := by
  obtain ⟨-, -, e0, e1, -⟩ := block_index0 t
  unfold iblk0
  rw [View.read_apply]
  show V c main_arg1 _ = V c main_arg1 _
  congr 1
  funext a
  apply Fin.ext
  match a with
  | ⟨0, _⟩ => show win0_1.index t (0 : Fin 2) * 10000 + 1 * (y 0).val = (i 0).val; rw [e0, h0]; omega
  | ⟨1, _⟩ => show win0_1.index t (1 : Fin 2) * 256 + 1 * (y 1).val = (i 1).val; rw [e1, h1]; omega

/-- Where entry `(r, c)` of the result block at point `t` sits in the result array: `(200 t + r, c)`. -/
theorem result0_emb (t : Fin cfg0.N) (j : S200x256.Idx) :
    ((((cfg0.win 2).blk t).view.emb j) 0).val = 200 * t.val + (j 0).val
    ∧ ((((cfg0.win 2).blk t).view.emb j) 1).val = (j 1).val := by
  obtain ⟨-, -, -, -, e0, e1⟩ := block_index0 t
  constructor
  · show win0_2.index t (0 : Fin 2) * 200 + 1 * (j 0).val = _; rw [e0]; omega
  · show win0_2.index t (1 : Fin 2) * 256 + 1 * (j 1).val = _; rw [e1]; omega

/-- What point `t` writes back is block `t` of the round `A x` of the arrays the kernel found. -/
theorem flushed_first (c : Dev nD) (t : Fin cfg0.N) :
    (dat0 V c).flushed 2 t
      = ((cfg0.win 2).blk t).view.read (Elt Ideal) (Cert.Propagate.round (V c main_arg0) (V c main_arg1)) := by
  show (cfg0.win 2).cut (grid0.coords t) ((dat0 V c).after 2 t) = _
  rw [after0_2]
  unfold out0_2
  rw [View.canon_unit_zero zero_offsets]
  simp only [View.ld_unit_zero (S := S200x10000) zero_offsets, View.ld_unit_zero (S := S10000x256) zero_offsets]
  funext j
  obtain ⟨r0, r1⟩ := result0_emb t j
  show k0_pay1 (F := Ideal) (iblk0 V c 0 t) (iblk0 V c 1 t) j
    = Cert.Propagate.round (V c main_arg0) (V c main_arg1) (((cfg0.win 2).blk t).view.emb j)
  refine (product0_apply _ _ j).trans ?_
  rw [Cert.Propagate.round_apply]
  refine Finset.sum_congr rfl fun k _ => ?_
  refine congrArg₂ (· * ·) (stripe0_apply V c t _ _ ?_ ?_) (whole0_apply V c t _ _ ?_ ?_)
  · show ((((cfg0.win 2).blk t).view.emb j) 0).val = 200 * t.val + (j 0).val
    exact r0
  · rfl
  · rfl
  · show ((((cfg0.win 2).blk t).view.emb j) 1).val = (j 1).val
    exact r1

/-- An index of the result array is in point `t`'s block iff each coordinate is in the block's range on its axis. -/
theorem mem_result0 (t : Fin cfg0.N) (i : S10000x256.Idx) :
    i ∈ ((cfg0.win 2).blk t).view.set ↔ ∀ a : Fin 2, win0_2.index t a * S200x256.size a ≤ (i a).val
      ∧ (i a).val < win0_2.index t a * S200x256.size a + S200x256.size a := by
  show i ∈ ((View.whole main_v0).slice (win0_2.rect t)).set ↔ _
  rw [View.set_slice_whole, Rect.mem_set_unit]
  exact Iff.rfl

/-- Row `r` of the result array is written back by point `r / 200`: the 50 blocks of 200 rows tile the 10000 rows. -/
theorem cover_first (i : S10000x256.Idx) :
    ∃ t : Fin cfg0.N, (cfg0.win 2).flush t = true ∧ i ∈ ((cfg0.win 2).blk t).view.set := by
  have h0 : (i 0).val < 10000 := idx2_lt0 i
  have h1 : (i 1).val < 256 := idx2_lt1 i
  have hN : cfg0.N = 50 := N_0
  have ht : (i 0).val / 200 < cfg0.N := by rw [hN]; omega
  obtain ⟨-, -, -, -, e0, e1⟩ := block_index0 ⟨(i 0).val / 200, ht⟩
  refine ⟨⟨(i 0).val / 200, ht⟩, flush0_2 _, ?_⟩
  rw [mem_result0]
  intro a
  match a with
  | ⟨0, _⟩ =>
    show win0_2.index ⟨(i 0).val / 200, ht⟩ (0 : Fin 2) * 200 ≤ (i 0).val
      ∧ (i 0).val < win0_2.index ⟨(i 0).val / 200, ht⟩ (0 : Fin 2) * 200 + 200
    rw [e0]
    show (i 0).val / 200 * 200 ≤ (i 0).val ∧ (i 0).val < (i 0).val / 200 * 200 + 200
    omega
  | ⟨1, _⟩ =>
    show win0_2.index ⟨(i 0).val / 200, ht⟩ (1 : Fin 2) * 256 ≤ (i 1).val
      ∧ (i 1).val < win0_2.index ⟨(i 0).val / 200, ht⟩ (1 : Fin 2) * 256 + 256
    rw [e1]
    omega

/-- The first kernel's result array ends holding one round `A x` of the arrays it found. -/
theorem first_final (c : Dev nD) :
    (dat0 V c).arrAt 2 cfg0.N = Cert.Propagate.round (V c main_arg0) (V c main_arg1) :=
  (dat0 V c).arrAt_eq_of_cover 2 _ (fun t _ => flushed_first V c t) cover_first

end Cert.KernelIdeal.Hand

end
-- ==== Proof.SecondRound.lean ====
/-
  What the second kernel leaves in its two result arrays: the second propagation round and the running total.

  The second kernel walks 50 grid points. At point `t` it is handed rows `200 t … 200 t + 199` of the adjacency matrix,
  the whole array `e` the first kernel produced, and rows `200 t … 200 t + 199` of the embeddings `x`. It writes the
  200 x 256 product of the stripe with `e` as rows `200 t …` of its first result, so that array ends holding `A e`;
  and it adds, entry by entry, the embedding block, rows `200 t … 200 t + 199` of `e` (loaded from the whole array at
  the row offset `200 t`), and the product, and writes that as rows `200 t …` of its second result, which therefore
  ends holding `(x + e) + A e`. Everything is stated for arbitrary contents `V` of the buffers when the kernel starts.
-/
import proofs.«128941_g11879879541107_cont_fleet_253_3_alg».proof.Proof.Gen.KernelIdeal.Frame
import proofs.«128941_g11879879541107_cont_fleet_253_3_alg».proof.Proof.Payloads
import proofs.«128941_g11879879541107_cont_fleet_253_3_alg».proof.Proof.Propagate
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

theorem zero_offsets1 : (![0, 0] : Fin 2 → Nat) = fun _ => 0 := funext fun a => by fin_cases a <;> rfl

section Pieces

variable {F : FTy → Type} [FloatOps F]

/-- The body's store into the product block leaves the product of the stripe with the whole array. -/
theorem second_piece (c : Dev nD) (i : grid1.Coords) (arg1 : Memref sig .tc .vmem S200x10000 .f32) (harg1 : arg1.IsWhole) (arg2 : Memref sig .tc .vmem S10000x256 .f32) (harg2 : arg2.IsWhole) (arg3 : Memref sig .tc .vmem S200x256 .f32) (harg3 : arg3.IsWhole) (arg4 : Memref sig .tc .vmem S200x256 .f32) (harg4 : arg4.IsWhole) (arg5 : Memref sig .tc .vmem S200x256 .f32) (harg5 : arg5.IsWhole)
    (x0 : Vec F S200x10000 .f32) (x1 : Vec F S10000x256 .f32) (x2 : Vec F S200x256 .f32) :
    out1_A_3 c i arg1 harg1 arg2 harg2 arg3 harg3 arg4 harg4 arg5 harg5 x0 x1 x2 = k1_pay1 x0 x1 := by
  unfold out1_A_3
  rw [View.read_writes_eq_canon _ _ _ (cover1_A_3 c i arg1 harg1 arg2 harg2 arg3 harg3 arg4 harg4 arg5 harg5 x0 x1 x2)]
  unfold kernelRun1_A
  dsimp only
  try sl_unfold_words
  rw [View.canon_unit_zero zero_offsets1]
  simp only [View.readAt_eq_ld, harg1.read_unread, harg2.read_unread,
    View.ld_unit_zero (S := S200x10000) zero_offsets1, View.ld_unit_zero (S := S10000x256) zero_offsets1]

/-- The body's store into the total block leaves the sum of the embedding block, the rows of the whole array loaded
    at the body's row offset, and the product. -/
theorem total_piece (c : Dev nD) (i : grid1.Coords) (arg1 : Memref sig .tc .vmem S200x10000 .f32) (harg1 : arg1.IsWhole) (arg2 : Memref sig .tc .vmem S10000x256 .f32) (harg2 : arg2.IsWhole) (arg3 : Memref sig .tc .vmem S200x256 .f32) (harg3 : arg3.IsWhole) (arg4 : Memref sig .tc .vmem S200x256 .f32) (harg4 : arg4.IsWhole) (arg5 : Memref sig .tc .vmem S200x256 .f32) (harg5 : arg5.IsWhole)
    (x0 : Vec F S200x10000 .f32) (x1 : Vec F S10000x256 .f32) (x2 : Vec F S200x256 .f32) :
    out1_A_4 c i arg1 harg1 arg2 harg2 arg3 harg3 arg4 harg4 arg5 harg5 x0 x1 x2
      = k1_pay2 x0 x1 x2 (View.ld x1 (Rect.unit (s := S10000x256) (k1_off1 i) S200x256.size (k1_off1_inb i))) := by
  unfold out1_A_4
  rw [View.read_writes_eq_canon _ _ _ (cover1_A_4 c i arg1 harg1 arg2 harg2 arg3 harg3 arg4 harg4 arg5 harg5 x0 x1 x2)]
  unfold kernelRun1_A
  dsimp only
  try sl_unfold_words
  rw [View.canon_unit_zero zero_offsets1]
  simp only [View.readAt_eq_ld, harg1.read_unread, harg2.read_unread, harg3.read_unread,
    View.ld_unit_zero (S := S200x10000) zero_offsets1, View.ld_unit_zero (S := S10000x256) zero_offsets1,
    View.ld_unit_zero (S := S200x256) zero_offsets1]

end Pieces

variable (V : (c : Dev nD) → (b : Ref sig .tc) → Buf (Elt Ideal) ((c : Thread nD τ).loc b))

/-- The block indices of the second kernel's five windows at grid point `t`, and the point's one grid coordinate:
    the stripe, the embedding block and both result blocks are block row `t`; the first kernel's array is its one
    whole block. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ ((grid1.coords t) 0).val = t.val :=
  (by decide +kernel : ∀ t : Fin grid1.N, _)

/-- The matrix stripe at point `t`, at `(r, k)`, is the matrix at `(200 t + r, k)`. -/
theorem stripe1_apply (c : Dev nD) (t : Fin cfg1.N) (y : S200x10000.Idx) (i : S10000x10000.Idx)
    (h0 : (i 0).val = 200 * t.val + (y 0).val) (h1 : (i 1).val = (y 1).val) :
    (iblk1 V c 0 t : Vec Ideal S200x10000 .f32) y = (V c main_arg0 : S10000x10000.Idx → Elt Ideal .f32) i := by
  obtain ⟨e0, e1, -⟩ := block_index1 t
  unfold iblk1
  rw [View.read_apply]
  show V c main_arg0 _ = V c main_arg0 _
  congr 1
  funext a
  apply Fin.ext
  match a with
  | ⟨0, _⟩ => show win1_0.index t (0 : Fin 2) * 200 + 1 * (y 0).val = (i 0).val; rw [e0, h0]; omega
  | ⟨1, _⟩ => show win1_0.index t (1 : Fin 2) * 10000 + 1 * (y 1).val = (i 1).val; rw [e1, h1]; omega

/-- The second window's block at any point is the whole array the first kernel produced. -/
theorem whole1_apply (c : Dev nD) (t : Fin cfg1.N) (y i : S10000x256.Idx)
    (h0 : (i 0).val = (y 0).val) (h1 : (i 1).val = (y 1).val) :
    (iblk1 V c 1 t : Vec Ideal S10000x256 .f32) y = (V c main_v0 : S10000x256.Idx → Elt Ideal .f32) i := by
  obtain ⟨-, -, e0, e1, -⟩ := block_index1 t
  unfold iblk1
  rw [View.read_apply]
  show V c main_v0 _ = V c main_v0 _
  congr 1
  funext a
  apply Fin.ext
  match a with
  | ⟨0, _⟩ => show win1_1.index t (0 : Fin 2) * 10000 + 1 * (y 0).val = (i 0).val; rw [e0, h0]; omega
  | ⟨1, _⟩ => show win1_1.index t (1 : Fin 2) * 256 + 1 * (y 1).val = (i 1).val; rw [e1, h1]; omega

/-- The embedding block at point `t`, at `(r, c)`, is the embedding array at `(200 t + r, c)`. -/
theorem embed1_apply (c : Dev nD) (t : Fin cfg1.N) (y : S200x256.Idx) (i : S10000x256.Idx)
    (h0 : (i 0).val = 200 * t.val + (y 0).val) (h1 : (i 1).val = (y 1).val) :
    (iblk1 V c 2 t : Vec Ideal S200x256 .f32) y = (V c main_arg1 : S10000x256.Idx → Elt Ideal .f32) i := by
  obtain ⟨-, -, -, -, e0, e1, -⟩ := block_index1 t
  unfold iblk1
  rw [View.read_apply]
  show V c main_arg1 _ = V c main_arg1 _
  congr 1
  funext a
  apply Fin.ext
  match a with
  | ⟨0, _⟩ => show win1_2.index t (0 : Fin 2) * 200 + 1 * (y 0).val = (i 0).val; rw [e0, h0]; omega
  | ⟨1, _⟩ => show win1_2.index t (1 : Fin 2) * 256 + 1 * (y 1).val = (i 1).val; rw [e1, h1]; omega

/-- The rows the body loads from the whole array at its row offset: entry `(r, c)` is the array at `(200 t + r, c)`. -/
theorem rows1_apply (c : Dev nD) (t : Fin cfg1.N) (j : S200x256.Idx) (i : S10000x256.Idx)
    (h0 : (i 0).val = 200 * t.val + (j 0).val) (h1 : (i 1).val = (j 1).val) :
    View.ld (iblk1 V c 1 t : Vec Ideal S10000x256 .f32)
        (Rect.unit (s := S10000x256) (k1_off1 (grid1.coords t)) S200x256.size (k1_off1_inb (grid1.coords t))) j
      = (V c main_v0 : S10000x256.Idx → Elt Ideal .f32) i := by
  have hc : ((grid1.coords t) 0).val = t.val := (block_index1 t).2.2.2.2.2.2.2.2.2.2
  have ho := k1_off1_eq (grid1.coords t)
  refine whole1_apply V c t _ i ?_ ?_
  · show (i 0).val = k1_off1 (grid1.coords t) (0 : Fin 2) + 1 * (j 0).val
    rw [ho, h0]
    show 200 * t.val + (j 0).val = 200 * ((grid1.coords t) 0).val + 1 * (j 0).val
    rw [hc]; omega
  · show (i 1).val = k1_off1 (grid1.coords t) (1 : Fin 2) + 1 * (j 1).val
    rw [ho, h1]
    show (j 1).val = 0 + 1 * (j 1).val
    omega

/-- The product block at point `t`, at `(r, c)`, is entry `(200 t + r, c)` of one round applied to the first
    kernel's array. -/
theorem product_block1 (c : Dev nD) (t : Fin cfg1.N) (a : Vec Ideal S200x10000 .f32) (e : Vec Ideal S10000x256 .f32)
    (ha : a = iblk1 V c 0 t) (he : e = iblk1 V c 1 t) (j : S200x256.Idx) (i : S10000x256.Idx)
    (h0 : (i 0).val = 200 * t.val + (j 0).val) (h1 : (i 1).val = (j 1).val) :
    ∑ k : Fin 10000, a (ix2 (j 0) k) * e (ix2 k (j 1))
      = Cert.Propagate.round (V c main_arg0) (V c main_v0) i := by
  subst ha he
  rw [Cert.Propagate.round_apply]
  refine Finset.sum_congr rfl fun k _ => ?_
  refine congrArg₂ (· * ·) (stripe1_apply V c t _ _ ?_ ?_) (whole1_apply V c t _ _ ?_ ?_)
  · exact h0
  · rfl
  · rfl
  · exact h1

/-- Where entry `(r, c)` of a result block at point `t` sits in its array: `(200 t + r, c)`, for both results. -/
theorem result3_emb (t : Fin cfg1.N) (j : S200x256.Idx) :
    ((((cfg1.win 3).blk t).view.emb j) 0).val = 200 * t.val + (j 0).val
    ∧ ((((cfg1.win 3).blk t).view.emb j) 1).val = (j 1).val := by
  obtain ⟨-, -, -, -, -, -, e0, e1, -⟩ := block_index1 t
  constructor
  · show win1_3.index t (0 : Fin 2) * 200 + 1 * (j 0).val = _; rw [e0]; omega
  · show win1_3.index t (1 : Fin 2) * 256 + 1 * (j 1).val = _; rw [e1]; omega
theorem result4_emb (t : Fin cfg1.N) (j : S200x256.Idx) :
    ((((cfg1.win 4).blk t).view.emb j) 0).val = 200 * t.val + (j 0).val
    ∧ ((((cfg1.win 4).blk t).view.emb j) 1).val = (j 1).val := by
  obtain ⟨-, -, -, -, -, -, -, -, e0, e1, -⟩ := block_index1 t
  constructor
  · show win1_4.index t (0 : Fin 2) * 200 + 1 * (j 0).val = _; rw [e0]; omega
  · show win1_4.index t (1 : Fin 2) * 256 + 1 * (j 1).val = _; rw [e1]; omega

/-- What point `t` writes back to the first result is block `t` of the round `A e`. -/
theorem flushed_second (c : Dev nD) (t : Fin cfg1.N) :
    (dat1 V c).flushed 3 t
      = ((cfg1.win 3).blk t).view.read (Elt Ideal) (Cert.Propagate.round (V c main_arg0) (V c main_v0)) := by
  show (cfg1.win 3).cut (grid1.coords t) ((dat1 V c).after 3 t) = _
  rw [after1_3]
  unfold outsAt1
  dsimp only
  rw [second_piece (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t)]
  funext j
  obtain ⟨r0, r1⟩ := result3_emb t j
  show k1_pay1 (F := Ideal) (iblk1 V c 0 t) (iblk1 V c 1 t) j
    = Cert.Propagate.round (V c main_arg0) (V c main_v0) (((cfg1.win 3).blk t).view.emb j)
  exact (product1_apply _ _ j).trans (product_block1 V c t _ _ rfl rfl j _ r0 r1)

/-- What point `t` writes back to the second result is block `t` of the running total. -/
theorem flushed_total (c : Dev nD) (t : Fin cfg1.N) :
    (dat1 V c).flushed 4 t = ((cfg1.win 4).blk t).view.read (Elt Ideal)
      (Cert.Propagate.totalWith (V c main_arg0) (V c main_arg1) (V c main_v0)) := by
  show (cfg1.win 4).cut (grid1.coords t) ((dat1 V c).after 4 t) = _
  rw [after1_4]
  unfold outsAt1
  dsimp only
  rw [total_piece (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t)]
  funext j
  obtain ⟨r0, r1⟩ := result4_emb t j
  show k1_pay2 (F := Ideal) (iblk1 V c 0 t) (iblk1 V c 1 t) (iblk1 V c 2 t)
      (View.ld (iblk1 V c 1 t : Vec Ideal S10000x256 .f32)
        (Rect.unit (s := S10000x256) (k1_off1 (grid1.coords t)) S200x256.size (k1_off1_inb (grid1.coords t)))) j
    = Cert.Propagate.totalWith (V c main_arg0) (V c main_arg1) (V c main_v0) (((cfg1.win 4).blk t).view.emb j)
  refine (total1_apply _ _ _ _ j).trans ?_
  unfold Cert.Propagate.totalWith
  exact congrArg₂ (· + ·)
    (congrArg₂ (· + ·) (embed1_apply V c t j _ r0 r1) (rows1_apply V c t j _ r0 r1))
    (product_block1 V c t _ _ rfl rfl j _ r0 r1)

/-- An index of result one is in point `t`'s block iff each coordinate is in the block's range on its axis. -/
theorem mem_result3 (t : Fin cfg1.N) (i : S10000x256.Idx) :
    i ∈ ((cfg1.win 3).blk t).view.set ↔ ∀ a : Fin 2, win1_3.index t a * S200x256.size a ≤ (i a).val
      ∧ (i a).val < win1_3.index t a * S200x256.size a + S200x256.size a := by
  show i ∈ ((View.whole main_v1_0).slice (win1_3.rect t)).set ↔ _
  rw [View.set_slice_whole, Rect.mem_set_unit]
  exact Iff.rfl

/-- Row `r` of result one is written back by point `r / 200`: the 50 blocks of 200 rows tile the 10000 rows. -/
theorem cover3 (i : S10000x256.Idx) :
    ∃ t : Fin cfg1.N, (cfg1.win 3).flush t = true ∧ i ∈ ((cfg1.win 3).blk t).view.set := by
  have h0 : (i 0).val < 10000 := idx2_lt0 i
  have h1 : (i 1).val < 256 := idx2_lt1 i
  have hN : cfg1.N = 50 := N_1
  have ht : (i 0).val / 200 < cfg1.N := by rw [hN]; omega
  have hb := block_index1 ⟨(i 0).val / 200, ht⟩
  have e0 : win1_3.index ⟨(i 0).val / 200, ht⟩ (0 : Fin 2) = (i 0).val / 200 := hb.2.2.2.2.2.2.1
  have e1 : win1_3.index ⟨(i 0).val / 200, ht⟩ (1 : Fin 2) = 0 := hb.2.2.2.2.2.2.2.1
  refine ⟨⟨(i 0).val / 200, ht⟩, flush1_3 _, ?_⟩
  rw [mem_result3]
  intro a
  match a with
  | ⟨0, _⟩ =>
    show win1_3.index ⟨(i 0).val / 200, ht⟩ (0 : Fin 2) * 200 ≤ (i 0).val
      ∧ (i 0).val < win1_3.index ⟨(i 0).val / 200, ht⟩ (0 : Fin 2) * 200 + 200
    rw [e0]
    omega
  | ⟨1, _⟩ =>
    show win1_3.index ⟨(i 0).val / 200, ht⟩ (1 : Fin 2) * 256 ≤ (i 1).val
      ∧ (i 1).val < win1_3.index ⟨(i 0).val / 200, ht⟩ (1 : Fin 2) * 256 + 256
    rw [e1]
    omega

/-- An index of result two is in point `t`'s block iff each coordinate is in the block's range on its axis. -/
theorem mem_result4 (t : Fin cfg1.N) (i : S10000x256.Idx) :
    i ∈ ((cfg1.win 4).blk t).view.set ↔ ∀ a : Fin 2, win1_4.index t a * S200x256.size a ≤ (i a).val
      ∧ (i a).val < win1_4.index t a * S200x256.size a + S200x256.size a := by
  show i ∈ ((View.whole main_v1_1).slice (win1_4.rect t)).set ↔ _
  rw [View.set_slice_whole, Rect.mem_set_unit]
  exact Iff.rfl

/-- Row `r` of result two is written back by point `r / 200`: the 50 blocks of 200 rows tile the 10000 rows. -/
theorem cover4 (i : S10000x256.Idx) :
    ∃ t : Fin cfg1.N, (cfg1.win 4).flush t = true ∧ i ∈ ((cfg1.win 4).blk t).view.set := by
  have h0 : (i 0).val < 10000 := idx2_lt0 i
  have h1 : (i 1).val < 256 := idx2_lt1 i
  have hN : cfg1.N = 50 := N_1
  have ht : (i 0).val / 200 < cfg1.N := by rw [hN]; omega
  have hb := block_index1 ⟨(i 0).val / 200, ht⟩
  have e0 : win1_4.index ⟨(i 0).val / 200, ht⟩ (0 : Fin 2) = (i 0).val / 200 := hb.2.2.2.2.2.2.2.2.1
  have e1 : win1_4.index ⟨(i 0).val / 200, ht⟩ (1 : Fin 2) = 0 := hb.2.2.2.2.2.2.2.2.2.1
  refine ⟨⟨(i 0).val / 200, ht⟩, flush1_4 _, ?_⟩
  rw [mem_result4]
  intro a
  match a with
  | ⟨0, _⟩ =>
    show win1_4.index ⟨(i 0).val / 200, ht⟩ (0 : Fin 2) * 200 ≤ (i 0).val
      ∧ (i 0).val < win1_4.index ⟨(i 0).val / 200, ht⟩ (0 : Fin 2) * 200 + 200
    rw [e0]
    omega
  | ⟨1, _⟩ =>
    show win1_4.index ⟨(i 0).val / 200, ht⟩ (1 : Fin 2) * 256 ≤ (i 1).val
      ∧ (i 1).val < win1_4.index ⟨(i 0).val / 200, ht⟩ (1 : Fin 2) * 256 + 256
    rw [e1]
    omega

/-- The second kernel's first result array ends holding one round `A e` of the arrays it found. -/
theorem second_final (c : Dev nD) :
    (dat1 V c).arrAt 3 cfg1.N = Cert.Propagate.round (V c main_arg0) (V c main_v0) :=
  (dat1 V c).arrAt_eq_of_cover 3 _ (fun t _ => flushed_second V c t) cover3

/-- The second kernel's second result array ends holding the running total `(x + e) + A e` of the arrays it found. -/
theorem total_final (c : Dev nD) :
    (dat1 V c).arrAt 4 cfg1.N = Cert.Propagate.totalWith (V c main_arg0) (V c main_arg1) (V c main_v0) :=
  (dat1 V c).arrAt_eq_of_cover 4 _ (fun t _ => flushed_total V c t) cover4

end Cert.KernelIdeal.Hand

end
-- ==== Proof.KernelValue.lean ====
/-
  The kernel program's three computed arrays as functions of its two arguments.

  The first kernel finds the arguments as launched and leaves `A x`. The second kernel finds the arguments as launched
  and the first kernel's array at `A x`, so it leaves `A (A x)` and `(x + A x) + A (A x)`.
-/
import proofs.«128941_g11879879541107_cont_fleet_253_3_alg».proof.Proof.KernelRun
import proofs.«128941_g11879879541107_cont_fleet_253_3_alg».proof.Proof.FirstRound
import proofs.«128941_g11879879541107_cont_fleet_253_3_alg».proof.Proof.SecondRound

noncomputable section

open Idealize.ShloMosaic Idealize.ShloMosaic.TcCoe Idealize.SL.Sem

namespace Cert.KernelIdeal.Hand

open Cert.KernelIdeal Cert.KernelIdeal.Gen Cert.Propagate

variable (m : (ℓ : Loc nD τ sig) → Buf (Elt Ideal) ℓ) (ρ : Dev nD → PrngReg)

/-- The first kernel's array ends at the first round of the arguments. -/
theorem first_value (c : Dev nD) :
    (dat0 (V0 m ρ) c).arrAt 2 cfg0.N
      = round (m ((c : Thread nD τ).loc main_arg0)) (m ((c : Thread nD τ).loc main_arg1)) :=
  first_final (V0 m ρ) c

/-- The second kernel's first array ends at the second round of the arguments. -/
theorem second_value (c : Dev nD) :
    (dat1 (V1 m ρ) c).arrAt 3 cfg1.N
      = round (m ((c : Thread nD τ).loc main_arg0))
          (round (m ((c : Thread nD τ).loc main_arg0)) (m ((c : Thread nD τ).loc main_arg1))) := by
  rw [second_final (V1 m ρ) c, mid_arg0, mid_first, first_value]

/-- The second kernel's second array ends at the running total of the arguments. -/
theorem total_value (c : Dev nD) :
    (dat1 (V1 m ρ) c).arrAt 4 cfg1.N
      = total (m ((c : Thread nD τ).loc main_arg0)) (m ((c : Thread nD τ).loc main_arg1)) := by
  rw [total_final (V1 m ρ) c, mid_arg0, mid_arg1, mid_first, first_value, total_eq_totalWith]

/-- Every weakly fair execution of the program terminates, nothing faulting, with the total, the first round and
    the second round in its three computed arrays and the arguments as launched. -/
theorem run_value : θ_run defs (onTc (τ := τ) (main (F := Ideal))) ⟨m, fun _ => 0, ρ⟩ (fun r => ∀ c : Dev nD,
      r.2.mem ((c.tc : Thread nD τ).loc main_v1_1)
        = total (m ((c.tc : Thread nD τ).loc main_arg0)) (m ((c.tc : Thread nD τ).loc main_arg1))
      ∧ r.2.mem ((c.tc : Thread nD τ).loc main_arg1) = m ((c.tc : Thread nD τ).loc main_arg1)
      ∧ r.2.mem ((c.tc : Thread nD τ).loc main_v0)
        = round (m ((c.tc : Thread nD τ).loc main_arg0)) (m ((c.tc : Thread nD τ).loc main_arg1))
      ∧ r.2.mem ((c.tc : Thread nD τ).loc main_v1_0)
        = round (m ((c.tc : Thread nD τ).loc main_arg0))
            (round (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c).1.trans (total_value m ρ c), (h c).2.1, (h c).2.2.1.trans (first_value m ρ c),
       (h c).2.2.2.1.trans (second_value m ρ c), (h c).2.2.2.2.1, (h c).2.2.2.2.2⟩)
    (run_named m ρ)

end Cert.KernelIdeal.Hand

end
-- ==== Proof.lean ====
/-
  Two rounds of propagation through a dense adjacency matrix: the kernel program against its reference.

  Both programs take a 10000 x 10000 matrix `A` and a 10000 x 256 array `x` and return the running total
  `(x + A x) + A (A x)`, the array `x`, the first round `A x` and the second round `A (A x)`. The kernel program computes
  the two rounds in two kernels, each producing 200 rows per grid point from a 200 x 10000 stripe of `A`, and forms
  the total block by block inside the second kernel; the reference uses two whole contractions and two whole sums.
  Over the extended reals an entry of a round is the same sum of the same products on both sides, and the total adds
  the same three entries in the same grouping, so the results are equal entry by entry, for any entries at all: the
  precondition is not used by the value argument.

  The three frames are the generated ones (the reference's is its generated run with the results dropped). The ideal
  pass rewrote nothing, so the idealization claim is trivial.
-/
import proofs.«128941_g11879879541107_cont_fleet_253_3_alg».proof.Defs
import proofs.«128941_g11879879541107_cont_fleet_253_3_alg».proof.Proof.Gen.Kernel
import proofs.«128941_g11879879541107_cont_fleet_253_3_alg».proof.Proof.Gen.Kernel.Skeleton
import proofs.«128941_g11879879541107_cont_fleet_253_3_alg».proof.Proof.Gen.Kernel.Launch
import proofs.«128941_g11879879541107_cont_fleet_253_3_alg».proof.Proof.Gen.Kernel.Points
import proofs.«128941_g11879879541107_cont_fleet_253_3_alg».proof.Proof.Gen.Kernel.Frame
import proofs.«128941_g11879879541107_cont_fleet_253_3_alg».proof.Proof.Gen.KernelIdeal
import proofs.«128941_g11879879541107_cont_fleet_253_3_alg».proof.Proof.Gen.KernelIdeal.Skeleton
import proofs.«128941_g11879879541107_cont_fleet_253_3_alg».proof.Proof.Gen.KernelIdeal.Launch
import proofs.«128941_g11879879541107_cont_fleet_253_3_alg».proof.Proof.Gen.KernelIdeal.Points
import proofs.«128941_g11879879541107_cont_fleet_253_3_alg».proof.Proof.Gen.KernelIdeal.Frame
import proofs.«128941_g11879879541107_cont_fleet_253_3_alg».proof.Proof.Gen.ReferenceIdeal
import proofs.«128941_g11879879541107_cont_fleet_253_3_alg».proof.Proof.Gen.ReferenceIdeal.Run
import proofs.«128941_g11879879541107_cont_fleet_253_3_alg».proof.Proof.Gen.ReferenceIdeal.Read
import proofs.«128941_g11879879541107_cont_fleet_253_3_alg».proof.Proof.Gen.Pre_finite_inputs
import proofs.«128941_g11879879541107_cont_fleet_253_3_alg».proof.Proof.RefValue
import proofs.«128941_g11879879541107_cont_fleet_253_3_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does the kernel program read over the extended reals. -/
theorem frame_ideal : Cert.frame_KernelIdeal := fun m ρ _ => Cert.KernelIdeal.Gen.frame m ρ

/-- So does the reference: its run, with what it says about the results dropped. -/
theorem frame_reference : Cert.frame_ReferenceIdeal := fun m ρ _ =>
  (θ_run Cert.ReferenceIdeal.defs _ _).mono (fun _ h c => ⟨(h c).2.2.2.2.1, (h c).2.2.2.2.2⟩)
    (Cert.ReferenceIdeal.Value.run (F := Ideal) m ρ)

/-- The ideal pass rewrote no operation. -/
theorem preserves : Cert.preserves_Kernel_KernelIdeal := trivial

/-- From memories that agree on `A` and `x`, both programs end with the total, `x`, the first round and the second
    round: the kernel program by the value of its two kernels, the reference by reading its four operations at an
    index. -/
theorem algebraic : Cert.algebraic_KernelIdeal_ReferenceIdeal := by
  intro m ρ m' ρ' _ hagree
  refine ⟨_, _, _, _, Cert.KernelIdeal.Hand.run_value m ρ, ?_⟩
  refine (θ_run Cert.ReferenceIdeal.defs _ _).mono (fun _ h c => ?_)
    (Cert.ReferenceIdeal.Value.run (F := Ideal) m' ρ')
  obtain ⟨h3, ha1, h0, h1, ha0, ha1'⟩ := h c
  refine ⟨h3.trans ?_, ha1.trans (hagree c).2, h0.trans ?_, h1.trans ?_, ha0, ha1'⟩
  · rw [(hagree c).1, (hagree c).2, Cert.ReferenceIdeal.Read.val_main_v3_eq, Cert.ReferenceIdeal.RefValue.total_eq]
  · rw [(hagree c).1, (hagree c).2, Cert.ReferenceIdeal.Read.val_main_v0_eq, Cert.ReferenceIdeal.RefValue.first_eq]
  · rw [(hagree c).1, (hagree c).2, Cert.ReferenceIdeal.Read.val_main_v1_eq, Cert.ReferenceIdeal.RefValue.second_eq]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
